-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1250000 32) (main_arg2 : IVec S1250000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S5000x64 : Shape := ⟨2, ![5000, 64]⟩
abbrev S5000x1 : Shape := ⟨2, ![5000, 1]⟩
abbrev S1250000x64 : Shape := ⟨2, ![1250000, 64]⟩
abbrev S1x64 : Shape := ⟨2, ![1, 64]⟩

abbrev nBuf : Space → Nat
  | .hbm => 37
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1250000, .f32⟩
  | .hbm, ⟨7, _⟩ => ⟨S_, .f32⟩
  | .hbm, ⟨8, _⟩ => ⟨S100000, .f32⟩
  | .hbm, ⟨9, _⟩ => ⟨S1250000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S_, .i32⟩
  | .hbm, ⟨21, _⟩ => ⟨S1250000, .i32⟩
  | .hbm, ⟨22, _⟩ => ⟨S1250000, .i1⟩
  | .hbm, ⟨23, _⟩ => ⟨S_, .i32⟩
  | .hbm, ⟨24, _⟩ => ⟨S1250000, .i32⟩
  | .hbm, ⟨25, _⟩ => ⟨S1250000, .i32⟩
  | .hbm, ⟨26, _⟩ => ⟨S1250000, .i32⟩
  | .hbm, ⟨27, _⟩ => ⟨S1250000x1, .i32⟩
  | .hbm, ⟨28, _⟩ => ⟨S1250000x64, .f32⟩
  | .hbm, ⟨29, _⟩ => ⟨S_, .f32⟩
  | .hbm, ⟨30, _⟩ => ⟨S100000x64, .f32⟩
  | .hbm, ⟨31, _⟩ => ⟨S1250000x1, .i32⟩
  | .hbm, ⟨32, _⟩ => ⟨S100000x64, .f32⟩
  | .hbm, ⟨33, _⟩ => ⟨S64x64, .f32⟩
  | .hbm, ⟨34, _⟩ => ⟨S64x64, .bf16⟩
  | .hbm, ⟨35, _⟩ => ⟨S1x64, .f32⟩
  | .hbm, ⟨36, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x64, .bf16⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  transposes_S64x64_S64x64_1_0 : S64x64.Transposes [1, 0] S64x64
  bitsLt_bf16_f32 : FTy.bits .bf16 < FTy.bits .f32
  bcast_S64_S1x64_1 : S64.BroadcastsInDim S1x64 (![1] : Fin 1 → Fin S1x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1250000, .f32⟩
  | .hbm, ⟨7, _⟩ => ⟨S_, .f32⟩
  | .hbm, ⟨8, _⟩ => ⟨S100000, .f32⟩
  | .hbm, ⟨9, _⟩ => ⟨S1250000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1250000x64, .f32⟩
  | .hbm, ⟨30, _⟩ => ⟨S_, .f32⟩
  | .hbm, ⟨31, _⟩ => ⟨S100000x64, .f32⟩
  | .hbm, ⟨32, _⟩ => ⟨S1250000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with its result named.

  The program is a chain of six segments: three stretches of host operations, the first dense stage on its grid of
  twenty row blocks, a fourth stretch of host operations (the gather of source rows and their accumulation at the
  destination rows), and the second dense stage on the same grid. Every weakly fair execution of the chain
  terminates without a fault, the five argument arrays end as launched, and the result array ends at the contents
  that the last segment boundary assigns to it: the fold of the write-backs of the second stage's twenty blocks.
-/
import proofs.«175793_j11158325035410_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates, nothing faulting; the result
    array ends at the last segment boundary's contents of it and the argument arrays end as launched. The last thread
    state holds every unscoped buffer at the last boundary's contents; each is read against the final state. -/
theorem run_named : θ_run defs (onTc (τ := τ) (main (F := F))) ⟨m, fun _ => 0, ρ⟩ (fun r => ∀ c : Dev nD,
      r.2.mem ((c.tc : Thread nD τ).loc main_v22) = W6 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v22 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Named

end
-- ==== Proof.HostReads.lean ====
/-
  What the host operations leave in the buffers the two dense stages read.

  Before the first stage the program computes, from the destination indices alone, the column `n` of inverse square
  roots of the in-degrees clipped below at one (`degreeScale`). Between the stages it gathers the rows of the first
  stage's result at the source indices (negative indices wrapped once) and accumulates them at the destination
  indices into an all-zero array (`aggregate`); it also transposes the weight matrix and lays the bias out as a row.
  None of these operations is opened here: each buffer is read as the operations' composed term of the argument
  arrays and of the first stage's result.
-/
import proofs.«175793_j11158325035410_1_alg».proof.Proof.Gen.KernelIdeal.Frame
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable {F : FTy → Type} [FloatOps F]

/-- The column of scale factors: the in-degree of every node (ones accumulated at the destination indices), clipped
    below at one, raised to the power minus one half, as a column. -/
def degreeScale (x2 : (⟨S1250000, .i32⟩ : BufTy).Contents (Elt F)) : (⟨S100000x1, .f32⟩ : BufTy).Contents (Elt F) :=
  broadcastInDim S100000x1 ![0] bcast_S100000_S100000x1_0
    (Host.powf
      (maximumf (broadcastInDim S100000 ![] bcast_S_S100000 (id (constant S_ .f32 0x3F800000#32)))
        (Host.scatterAdd scatter_S100000_S1250000x1_S1250000_n_0_0_1
          (broadcastInDim S100000 ![] bcast_S_S100000 (constant S_ .f32 0x00000000#32))
          (broadcastInDim S1250000x1 ![0] bcast_S1250000_S1250000x1_0 x2)
          (broadcastInDim S1250000 ![] bcast_S_S1250000 (constant S_ .f32 0x3F800000#32))))
      (broadcastInDim S100000 ![] bcast_S_S100000 (constant S_ .f32 0xBF000000#32)))

/-- The messages: the rows of `h` at the source indices `x1` (a negative index wrapped once), summed into the rows
    named by the destination indices `x2`, from an all-zero array. -/
def aggregate (h : (⟨S100000x64, .f32⟩ : BufTy).Contents (Elt F)) (x1 x2 : (⟨S1250000, .i32⟩ : BufTy).Contents (Elt F)) :
    (⟨S100000x64, .f32⟩ : BufTy).Contents (Elt F) :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 x2)
    (Host.gather gather_S100000x64_S1250000x1_S1250000x64_1_0_n_n_0_1_164 h
      (broadcastInDim S1250000x1 ![0] bcast_S1250000_S1250000x1_0
        (select (cmpi .slt x1 (broadcastInDim S1250000 ![] bcast_S_S1250000 (constantI S_ 32 0#32)))
          (addi x1 (broadcastInDim S1250000 ![] bcast_S_S1250000 (constantI S_ 32 100000#32))) x1)))

/-- The weight matrix transposed (inputs along the rows), in the narrower float format. -/
def weightT (x3 : (⟨S64x64, .f32⟩ : BufTy).Contents (Elt F)) : (⟨S64x64, .bf16⟩ : BufTy).Contents (Elt F) :=
  truncf .bf16 (transpose S64x64 [1, 0] x3 transposes_S64x64_S64x64_1_0) bitsLt_bf16_f32

/-- The bias as a one-row matrix. -/
def biasRow (x4 : (⟨S64, .f32⟩ : BufTy).Contents (Elt F)) : (⟨S1x64, .f32⟩ : BufTy).Contents (Elt F) :=
  broadcastInDim S1x64 ![1] bcast_S64_S1x64_1 x4

variable (m : (ℓ : Loc nD τ sig) → Buf (Elt F) ℓ) (ρ : Dev nD → PrngReg)

/-- At the first stage's entry the feature matrix is as launched. -/
theorem entry0_feat (c : Dev nD) : W3 m ρ c (Proc.devRef .tc main_arg0) = m ((c : Thread nD τ).loc main_arg0) := by
  dsimp only [W3, W2, W1, W0, hostOps0, hostOps0_1, hostOps0_2]
  after_results_simp <;> rfl

/-- At the first stage's entry the scale column is `degreeScale` of the destination indices. -/
theorem entry0_scale (c : Dev nD) :
    W3 m ρ c (Proc.devRef .tc main_v7) = degreeScale (m ((c : Thread nD τ).loc main_arg2)) := by
  dsimp only [W3, W2, W1, W0, hostOps0, hostOps0_1, hostOps0_2]
  after_results_simp <;> rfl

/-- A buffer no window of the first stage names is, at the stage's exit, as at its entry; here an argument array or
    the scale column, each as the host operations before the stage left it. -/
theorem exit0_src (c : Dev nD) : W4 m ρ c (Proc.devRef .tc main_arg1) = m ((c : Thread nD τ).loc main_arg1) := by
  rw [W4_of_ne m ρ c main_arg1 (by decide)]
  dsimp only [W3, W2, W1, W0, hostOps0, hostOps0_1, hostOps0_2]
  after_results_simp <;> rfl
theorem exit0_dst (c : Dev nD) : W4 m ρ c (Proc.devRef .tc main_arg2) = m ((c : Thread nD τ).loc main_arg2) := by
  rw [W4_of_ne m ρ c main_arg2 (by decide)]
  dsimp only [W3, W2, W1, W0, hostOps0, hostOps0_1, hostOps0_2]
  after_results_simp <;> rfl
theorem exit0_weight (c : Dev nD) : W4 m ρ c (Proc.devRef .tc main_arg3) = m ((c : Thread nD τ).loc main_arg3) := by
  rw [W4_of_ne m ρ c main_arg3 (by decide)]
  dsimp only [W3, W2, W1, W0, hostOps0, hostOps0_1, hostOps0_2]
  after_results_simp <;> rfl
theorem exit0_bias (c : Dev nD) : W4 m ρ c (Proc.devRef .tc main_arg4) = m ((c : Thread nD τ).loc main_arg4) := by
  rw [W4_of_ne m ρ c main_arg4 (by decide)]
  dsimp only [W3, W2, W1, W0, hostOps0, hostOps0_1, hostOps0_2]
  after_results_simp <;> rfl
/-- The scale column is an input of the first stage, never written back: at the exit it is as at the entry. -/
theorem exit0_scale (c : Dev nD) :
    W4 m ρ c (Proc.devRef .tc main_v7) = degreeScale (m ((c : Thread nD τ).loc main_arg2)) :=
  ((W4_arr m ρ c 1).trans (((dat0 (V3 m ρ) c).arrAt_in 1 rfl _).trans (A_eq0 (V3 m ρ) c 1))).trans (entry0_scale m ρ c)

/-- At the second stage's entry: the aggregated messages of the first stage's result. -/
theorem entry1_agg (c : Dev nD) :
    W5 m ρ c (Proc.devRef .tc main_v18)
      = aggregate (W4 m ρ c (Proc.devRef .tc main_v8)) (m ((c : Thread nD τ).loc main_arg1)) (m ((c : Thread nD τ).loc main_arg2)) := by
  rw [← exit0_src m ρ c, ← exit0_dst m ρ c]
  dsimp only [W5, hostOps1]
  after_results_simp <;> rfl

/-- At the second stage's entry the scale column is still `degreeScale` of the destination indices. -/
theorem entry1_scale (c : Dev nD) :
    W5 m ρ c (Proc.devRef .tc main_v7) = degreeScale (m ((c : Thread nD τ).loc main_arg2)) := by
  rw [← exit0_scale m ρ c]
  dsimp only [W5, hostOps1]
  after_results_simp <;> rfl

/-- At the second stage's entry: the transposed weight matrix, in the narrower float format. -/
theorem entry1_weight (c : Dev nD) :
    W5 m ρ c (Proc.devRef .tc main_v20) = weightT (m ((c : Thread nD τ).loc main_arg3)) := by
  rw [← exit0_weight m ρ c]
  dsimp only [W5, hostOps1]
  after_results_simp <;> rfl

/-- At the second stage's entry: the bias as a row. -/
theorem entry1_bias (c : Dev nD) :
    W5 m ρ c (Proc.devRef .tc main_v21) = biasRow (m ((c : Thread nD τ).loc main_arg4)) := by
  rw [← exit0_bias m ρ c]
  dsimp only [W5, hostOps1]
  after_results_simp <;> rfl

end Cert.KernelIdeal.Boundary

end
-- ==== Proof.Spec.lean ====
/-
  The two dense stages of the graph layer, as functions of whole arrays over the extended reals.

  With `n` the column of inverse square roots of the (clipped) in-degrees, stage one multiplies every row of the
  feature matrix by that row's entry of `n`; stage two multiplies every row of the aggregated messages by the same
  entry, applies the linear map `W` (64 inputs, 64 outputs) and adds the bias row `b`:
  entry `(r, o)` is `Σ_k (A[r, k] · n[r]) · W[k, o] + b[o]`.
-/
import Idealize.ShloMosaic.Lib.ValueIdx

noncomputable section

namespace Cert.Spec

open Idealize.ShloMosaic Idealize.ShloMosaic.ValueIdx
open scoped BigOperators

/-- Every row of `a` multiplied by that row's entry of the column `n`. -/
def scaleRows (a : (⟨2, ![100000, 64]⟩ : Shape).Idx → EReal) (n : (⟨2, ![100000, 1]⟩ : Shape).Idx → EReal) :
    (⟨2, ![100000, 64]⟩ : Shape).Idx → EReal :=
  fun i => a i * n (ix2 (n0 := 100000) (n1 := 1) (i 0) (0 : Fin 1))

/-- The rescaled rows of `A` through the linear map `W`, plus the bias row `b`. -/
def dense (A : (⟨2, ![100000, 64]⟩ : Shape).Idx → EReal) (n : (⟨2, ![100000, 1]⟩ : Shape).Idx → EReal)
    (W : (⟨2, ![64, 64]⟩ : Shape).Idx → EReal) (b : (⟨2, ![1, 64]⟩ : Shape).Idx → EReal) :
    (⟨2, ![100000, 64]⟩ : Shape).Idx → EReal :=
  fun i => (∑ k : Fin 64, (A (ix2 (n0 := 100000) (n1 := 64) (i 0) k) * n (ix2 (n0 := 100000) (n1 := 1) (i 0) (0 : Fin 1)))
      * W (ix2 (n0 := 64) (n1 := 64) k (i 1)))
    + b (ix2 (n0 := 1) (n1 := 64) (0 : Fin 1) (i 1))

end Cert.Spec

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.ScaledRows.lean ====
/-
  Stage one of the layer, array by array: the pipelined region that rescales the feature rows.

  The region walks the 100000 rows in 20 blocks of 5000. At each block it multiplies every entry of the feature
  block by its row's entry of the column block and writes the product block back. The blocks tile the rows, so the
  output array ends as the feature array with each row multiplied by that row's entry of the column.
-/
import proofs.«175793_j11158325035410_1_alg».proof.Proof.Gen.KernelIdeal.Frame
import proofs.«175793_j11158325035410_1_alg».proof.Proof.Spec
import proofs.«175793_j11158325035410_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The all-zero offset pair, as the constant function. -/
theorem zero_offsets : (![0, 0] : Fin 2 → Nat) = fun _ => 0 := funext fun a => by fin_cases a <;> rfl

/-- Entry (p, q) of the product block: the feature block's entry (p, q) times the column block's entry of row p. -/
theorem payload_apply (x0 : Vec Ideal S5000x64 .f32) (x1 : Vec Ideal S5000x1 .f32) (p : Fin 5000) (q : Fin 64) :
    k0_pay1 x1 x0 (ix2 p q) = x0 (ix2 p q) * x1 (ix2 p (0 : Fin 1)) := by
  unfold k0_pay1
  simp only [shapeCast_self]
  rw [mulf_apply, Cert.LibKeepdims.broadcastTo_a1_ab_apply]

/-- Where the blocks sit: at point t all three windows are on row block t (rows 5000 t … 5000 t + 4999), and no
    window moves along the columns. -/
theorem block_indices : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the rescaled feature array: entry (p, q) of the block is entry
    (5000 t + p, q) of the features times entry 5000 t + p of the column. -/
theorem flushed_eq (c : Dev nD) (t : Fin cfg0.N) :
    (dat0 (F := Ideal) V c).flushed 2 t
      = ((cfg0.win 2).blk t).view.read (Elt Ideal) (Cert.Spec.scaleRows (V c main_arg0) (V c main_v7)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S5000x1) zero_offsets]
  funext j
  obtain ⟨p, q, rfl⟩ : ∃ (p : Fin 5000) (q : Fin 64), j = ix2 p q := ⟨j 0, j 1, eq_ix2 j⟩
  refine (payload_apply (iblk0 V c 0 t) (iblk0 V c 1 t) p q).trans ?_
  obtain ⟨e0, e1, e2, e3, e4, e5⟩ := block_indices t
  have h0 : ((cfg0.win 0).blk t).view.emb (ix2 p q) = ((cfg0.win 2).blk t).view.emb (ix2 p q) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * q.val = win0_2.index t (1 : Fin 2) * 64 + 1 * q.val; omega
  have h1 : ((cfg0.win 1).blk t).view.emb (ix2 p (0 : Fin 1))
      = ix2 (n0 := 100000) (n1 := 1) ((((cfg0.win 2).blk t).view.emb (ix2 p q)) 0) (0 : Fin 1) := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  have key : ∀ (A : S100000x64.Idx → EReal) (n : S100000x1.Idx → EReal),
      A (((cfg0.win 0).blk t).view.emb (ix2 p q)) * n (((cfg0.win 1).blk t).view.emb (ix2 p (0 : Fin 1)))
        = Cert.Spec.scaleRows A n (((cfg0.win 2).blk t).view.emb (ix2 p q)) := by
    intro A n
    rw [h0, h1]
    rfl
  exact key (V c main_arg0) (V c main_v7)

/-- An index of the array lies in point t's block iff each coordinate lies in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v8).slice (win0_2.rect t)).set ↔ _
  rw [View.set_slice_whole, Rect.mem_set_unit]
  exact Iff.rfl

/-- The 20 row blocks tile the array: row r lies in the block of point r / 5000, and that point writes back. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  have ht : (i 0).val / 5000 < grid0.N := by omega
  obtain ⟨e0, e1, e2, e3, e4, e5⟩ := block_indices ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    rw [e5]; omega

/-- The output array after the region: the feature array with every row multiplied by that row's entry of the
    column. Entry (r, q) depends on entry (r, q) of the features and entry r of the column only. -/
theorem final (c : Dev nD) :
    (dat0 (F := Ideal) V c).arrAt 2 cfg0.N = Cert.Spec.scaleRows (V c main_arg0) (V c main_v7) :=
  (dat0 V c).arrAt_eq_of_cover 2 (Cert.Spec.scaleRows (V c main_arg0) (V c main_v7)) (fun t _ => flushed_eq V c t) cover

end Cert.KernelIdeal.Stage0

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.DenseLayer.lean ====
/-
  Stage two of the layer, array by array: the pipelined region that rescales the aggregated rows, applies the
  linear map and adds the bias.

  The region walks the 100000 rows in 20 blocks of 5000, with the 64 × 64 matrix and the bias row held whole at
  every block. At each block it multiplies every entry of the aggregated block by its row's entry of the column
  block, multiplies the rescaled block by the matrix, adds the bias row to every row of the product, and writes the
  block back. The blocks tile the rows, so entry (r, o) of the output array ends as
  Σ_k (A[r, k] · n[r]) · W[k, o] + b[o].
-/
import proofs.«175793_j11158325035410_1_alg».proof.Proof.Gen.KernelIdeal.Frame
import proofs.«175793_j11158325035410_1_alg».proof.Proof.Spec
import proofs.«175793_j11158325035410_1_alg».proof.Proof.LibKeepdims
import proofs.«175793_j11158325035410_1_alg».proof.Proof.LibMatmulRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage1

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The all-zero offset pair, as the constant function. -/
theorem zero_offsets : (![0, 0] : Fin 2 → Nat) = fun _ => 0 := funext fun a => by fin_cases a <;> rfl

/-- The block product contracts the left block's columns with the matrix's rows and has no batch axis. -/
theorem rows_by_cols : MatmulRead.RowsByCols dot_S5000x64_S64x64_S5000x64_1_0_0_1_n_n :=
  ⟨rfl, rfl, rfl, rfl, rfl, rfl⟩

/-- Entry (p, q) of the block the body stores: the sum over k of (aggregated entry (p, k) times the column block's
    entry of row p) times the matrix entry (k, q), plus the bias entry q. -/
theorem payload_apply (x0 : Vec Ideal S5000x64 .f32) (x1 : Vec Ideal S5000x1 .f32) (x2 : Vec Ideal S64x64 .bf16)
    (x3 : Vec Ideal S1x64 .f32) (p : Fin 5000) (q : Fin 64) :
    k1_pay1 x1 x0 x2 x3 (ix2 p q)
      = (∑ k : Fin 64, (x0 (ix2 p k) * x1 (ix2 p (0 : Fin 1))) * x2 (ix2 k q)) + x3 (ix2 (0 : Fin 1) q) := by
  unfold k1_pay1
  simp only [shapeCast_self]
  rw [addf_apply, broadcastTo_1b_ab_apply]
  refine congrArg (· + x3 (ix2 (0 : Fin 1) q)) ?_
  refine (MatmulRead.matmul_zero_ix2 rows_by_cols rfl rfl none (φ₁ := .bf16) (φ₂ := .bf16) _ x2 p q).trans ?_
  refine Finset.sum_congr rfl fun k _ => ?_
  rw [truncf_apply, mulf_apply, Cert.LibKeepdims.broadcastTo_a1_ab_apply]

/-- Where the blocks sit: at point t the aggregated rows, the column and the output are on row block t (rows
    5000 t … 5000 t + 4999); the matrix and the bias row are whole at every point. -/
theorem block_indices : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- What point t writes back is block t of the dense layer's output: entry (p, q) of the block is entry
    (5000 t + p, q) of that array, which reads row 5000 t + p of the aggregated rows and of the column, column q
    of the matrix and entry q of the bias row. -/
theorem flushed_eq (c : Dev nD) (t : Fin cfg1.N) :
    (dat1 (F := Ideal) V c).flushed 4 t
      = ((cfg1.win 4).blk t).view.read (Elt Ideal)
          (Cert.Spec.dense (V c main_v18) (V c main_v7) (V c main_v20) (V c main_v21)) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S5000x1) zero_offsets,
    View.ld_unit_zero (S := S64x64) zero_offsets, View.ld_unit_zero (S := S1x64) zero_offsets]
  funext j
  obtain ⟨p, q, rfl⟩ : ∃ (p : Fin 5000) (q : Fin 64), j = ix2 p q := ⟨j 0, j 1, eq_ix2 j⟩
  refine (payload_apply (iblk1 V c 0 t) (iblk1 V c 1 t) (iblk1 V c 2 t) (iblk1 V c 3 t) p q).trans ?_
  obtain ⟨e0, e1, e2, e3, e4, e5, e6, e7, e8, e9⟩ := block_indices t
  have h0 : ∀ k : Fin 64, ((cfg1.win 0).blk t).view.emb (ix2 p k)
      = ix2 (n0 := 100000) (n1 := 64) ((((cfg1.win 4).blk t).view.emb (ix2 p q)) 0) k := fun k => by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * k.val = k.val; omega
  have h1 : ((cfg1.win 1).blk t).view.emb (ix2 p (0 : Fin 1))
      = ix2 (n0 := 100000) (n1 := 1) ((((cfg1.win 4).blk t).view.emb (ix2 p q)) 0) (0 : Fin 1) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  have h2 : ∀ k : Fin 64, ((cfg1.win 2).blk t).view.emb (ix2 k q)
      = ix2 (n0 := 64) (n1 := 64) k ((((cfg1.win 4).blk t).view.emb (ix2 p q)) 1) := fun k => by
    funext a; apply Fin.ext
    match a with
    | ⟨0, _⟩ => show win1_2.index t (0 : Fin 2) * 64 + 1 * k.val = k.val; omega
    | ⟨1, _⟩ => show win1_2.index t (1 : Fin 2) * 64 + 1 * q.val = win1_4.index t (1 : Fin 2) * 64 + 1 * q.val; omega
  have h3 : ((cfg1.win 3).blk t).view.emb (ix2 (0 : Fin 1) q)
      = ix2 (n0 := 1) (n1 := 64) (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  have key : ∀ (A : S100000x64.Idx → EReal) (n : S100000x1.Idx → EReal) (W : S64x64.Idx → EReal)
      (b : S1x64.Idx → EReal),
      (∑ k : Fin 64, (A (((cfg1.win 0).blk t).view.emb (ix2 p k))
          * n (((cfg1.win 1).blk t).view.emb (ix2 p (0 : Fin 1)))) * W (((cfg1.win 2).blk t).view.emb (ix2 k q)))
        + b (((cfg1.win 3).blk t).view.emb (ix2 (0 : Fin 1) q))
        = Cert.Spec.dense A n W b (((cfg1.win 4).blk t).view.emb (ix2 p q)) := by
    intro A n W b
    rw [h1, h3]
    refine Eq.trans (congrArg (· + b _) (Finset.sum_congr rfl fun k _ => ?_)) rfl
    rw [h0 k, h2 k]
  exact key (V c main_v18) (V c main_v7) (V c main_v20) (V c main_v21)

/-- An index of the array lies in point t's block iff each coordinate lies in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v22).slice (win1_4.rect t)).set ↔ _
  rw [View.set_slice_whole, Rect.mem_set_unit]
  exact Iff.rfl

/-- The 20 row blocks tile the array: row r lies in the block of point r / 5000, and that point writes back. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 20 := N_1
  have ht : (i 0).val / 5000 < grid1.N := by omega
  obtain ⟨e0, e1, e2, e3, e4, e5, e6, e7, e8, e9⟩ := block_indices ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [e9]; omega

/-- The output array after the region: entry (r, o) is Σ_k (A[r, k] · n[r]) · W[k, o] + b[o], with A the
    aggregated rows, n the column, W the matrix and b the bias row as the region finds them. Entry (r, o) depends on
    row r of A, entry r of n, column o of W and entry o of b only. -/
theorem final (c : Dev nD) :
    (dat1 (F := Ideal) V c).arrAt 4 cfg1.N
      = Cert.Spec.dense (V c main_v18) (V c main_v7) (V c main_v20) (V c main_v21) :=
  (dat1 V c).arrAt_eq_of_cover 4 (Cert.Spec.dense (V c main_v18) (V c main_v7) (V c main_v20) (V c main_v21))
    (fun t _ => flushed_eq V c t) cover

end Cert.KernelIdeal.Stage1

end
-- ==== Proof.KernelValue.lean ====
/-
  The idealized kernel program's result as one function of its arguments.

  The result array is the fold of the second dense stage's twenty write-backs, which is `Cert.Spec.dense` of the four
  arrays the stage reads at its entry: the aggregated messages, the scale column, the transposed weights and the
  bias row. The aggregated messages are the host's gather and accumulation applied to the first dense stage's
  result, which is `Cert.Spec.scaleRows` of the features and the scale column; the scale column is the same at both
  stages because nothing in between writes it.
-/
import proofs.«175793_j11158325035410_1_alg».proof.Proof.HostReads
import proofs.«175793_j11158325035410_1_alg».proof.Proof.ScaledRows
import proofs.«175793_j11158325035410_1_alg».proof.Proof.DenseLayer

noncomputable section

namespace Cert.KernelIdeal.Boundary

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first stage's result: every row of the features times the row's scale. -/
theorem stage0_value (c : Dev nD) :
    W4 m ρ c (Proc.devRef .tc main_v8)
      = Cert.Spec.scaleRows (m ((c : Thread nD τ).loc main_arg0)) (degreeScale (m ((c : Thread nD τ).loc main_arg2))) := by
  rw [show W4 m ρ c (Proc.devRef .tc main_v8) = (dat0 (V3 m ρ) c).arrAt 2 cfg0.N from W4_arr m ρ c 2,
    Cert.KernelIdeal.Stage0.final (V3 m ρ) c]
  show Cert.Spec.scaleRows (W3 m ρ c (Proc.devRef .tc main_arg0)) (W3 m ρ c (Proc.devRef .tc main_v7)) = _
  rw [entry0_feat, entry0_scale]

/-- The program's result: the dense layer of the aggregated, rescaled rows. -/
theorem result_value (c : Dev nD) :
    W6 m ρ c (Proc.devRef .tc main_v22)
      = Cert.Spec.dense
          (aggregate (Cert.Spec.scaleRows (m ((c : Thread nD τ).loc main_arg0)) (degreeScale (m ((c : Thread nD τ).loc main_arg2))))
            (m ((c : Thread nD τ).loc main_arg1)) (m ((c : Thread nD τ).loc main_arg2)))
          (degreeScale (m ((c : Thread nD τ).loc main_arg2)))
          (weightT (m ((c : Thread nD τ).loc main_arg3)))
          (biasRow (m ((c : Thread nD τ).loc main_arg4))) := by
  rw [show W6 m ρ c (Proc.devRef .tc main_v22) = (dat1 (V5 m ρ) c).arrAt 4 cfg1.N from W6_arr m ρ c 4,
    Cert.KernelIdeal.Stage1.final (V5 m ρ) c]
  show Cert.Spec.dense (W5 m ρ c (Proc.devRef .tc main_v18)) (W5 m ρ c (Proc.devRef .tc main_v7))
    (W5 m ρ c (Proc.devRef .tc main_v20)) (W5 m ρ c (Proc.devRef .tc main_v21)) = _
  rw [entry1_agg, entry1_scale, entry1_weight, entry1_bias, stage0_value]

end Cert.KernelIdeal.Boundary

end
-- ==== Proof.RefValue.lean ====
/-
  The reference program computes the same function.

  The reference scales the rows of the feature matrix by the column of inverse square roots of the clipped
  in-degrees, gathers and accumulates the scaled rows along the edges, scales the rows of the sums by the same
  column, and applies the linear layer: entry `(r, o)` of its result is `Σ_k (A[r, k] · n[r]) · W[o, k] + b[o]`. Read
  one operation at a time, that is `Cert.Spec.dense` of the aggregated rows of `Cert.Spec.scaleRows` of the features.
  The gather, the accumulation and the power are the same operations of the same arrays on both sides and are never
  opened.
-/
import proofs.«175793_j11158325035410_1_alg».proof.Proof.Gen.ReferenceIdeal.Read
import proofs.«175793_j11158325035410_1_alg».proof.Proof.HostReads
import proofs.«175793_j11158325035410_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

/-- The reference's scale column is the kernel program's: the same operations of the destination indices. -/
theorem scale_eq (x2 : (⟨S1250000, .i32⟩ : BufTy).Contents (Elt Ideal)) :
    Cert.KernelIdeal.Boundary.degreeScale (F := Ideal) x2 = val_main_v7 (F := Ideal) x2 := rfl

/-- The reference's scaled features, index by index: row `r` times the scale of row `r`. -/
theorem scaled_eq (x0 : (⟨S100000x64, .f32⟩ : BufTy).Contents (Elt Ideal)) (x2 : (⟨S1250000, .i32⟩ : BufTy).Contents (Elt Ideal)) :
    Cert.Spec.scaleRows x0 (val_main_v7 (F := Ideal) x2) = val_main_v9 (F := Ideal) x0 x2 := by
  funext i
  rw [val_main_v9_apply, val_main_v8_apply]
  have e : idx_main_v8 i = ix2 (n0 := 100000) (n1 := 1) (i 0) (0 : Fin 1) :=
    funext fun a => Fin.ext (by match a with | ⟨0, _⟩ => rfl | ⟨1, _⟩ => rfl)
  rw [e]
  rfl

/-- The reference's aggregated messages are the kernel program's aggregation of the reference's scaled features. -/
theorem agg_eq (x0 : (⟨S100000x64, .f32⟩ : BufTy).Contents (Elt Ideal)) (x1 x2 : (⟨S1250000, .i32⟩ : BufTy).Contents (Elt Ideal)) :
    Cert.KernelIdeal.Boundary.aggregate (F := Ideal) (val_main_v9 (F := Ideal) x0 x2) x1 x2 = val_main_v19 (F := Ideal) x0 x1 x2 := rfl

/-- A finite sum of extended reals whose terms agree index by index. -/
theorem sum_congr_fin {n : ℕ} (f g : Fin n → EReal) (h : ∀ k, f k = g k) : ∑ k : Fin n, f k = ∑ k : Fin n, g k :=
  Finset.sum_congr rfl fun k _ => h k

/-- The reference's result is the dense layer of its aggregated messages: entry `(r, o)` of the matrix product sums,
    over the 64 inputs `k`, the rescaled sum `A[r, k] · n[r]` times the transposed weight at `(k, o)`, and the bias
    row adds `b[o]`. A change of float format is the identity on the extended reals. -/
theorem result_eq (x0 : (⟨S100000x64, .f32⟩ : BufTy).Contents (Elt Ideal)) (x1 x2 : (⟨S1250000, .i32⟩ : BufTy).Contents (Elt Ideal))
    (x3 : (⟨S64x64, .f32⟩ : BufTy).Contents (Elt Ideal)) (x4 : (⟨S64, .f32⟩ : BufTy).Contents (Elt Ideal)) :
    Cert.Spec.dense (val_main_v19 (F := Ideal) x0 x1 x2) (val_main_v7 (F := Ideal) x2)
        (Cert.KernelIdeal.Boundary.weightT (F := Ideal) x3) (Cert.KernelIdeal.Boundary.biasRow (F := Ideal) x4)
      = val_main_v26 (F := Ideal) x0 x1 x2 x3 x4 := by
  have hw : Cert.KernelIdeal.Boundary.weightT (F := Ideal) x3 = val_main_v22 (F := Ideal) x3 := rfl
  have hb : Cert.KernelIdeal.Boundary.biasRow (F := Ideal) x4 = val_main_v24 (F := Ideal) x4 := rfl
  rw [hw, hb]
  funext i
  rw [val_main_v26_apply, val_main_v23_apply, val_main_v25_apply]
  have e25 : idx_main_v25 i = ix2 (n0 := 1) (n1 := 64) (0 : Fin 1) (i 1) :=
    funext fun a => Fin.ext (by match a with | ⟨0, _⟩ => rfl | ⟨1, _⟩ => rfl)
  rw [e25]
  unfold Cert.Spec.dense
  refine congrArg (· + val_main_v24 (F := Ideal) x4 (ix2 (n0 := 1) (n1 := 64) (0 : Fin 1) (i 1))) ?_
  refine sum_congr_fin _ _ fun k => ?_
  rw [val_main_v21_apply, val_main_v20_apply]
  have el : lidx_main_v23 i k = ix2 (n0 := 100000) (n1 := 64) (i 0) k :=
    funext fun a => Fin.ext (by match a with | ⟨0, _⟩ => rfl | ⟨1, _⟩ => rfl)
  have er : ridx_main_v23 i k = ix2 (n0 := 64) (n1 := 64) k (i 1) :=
    funext fun a => Fin.ext (by match a with | ⟨0, _⟩ => rfl | ⟨1, _⟩ => rfl)
  have e20 : idx_main_v20 (ix2 (n0 := 100000) (n1 := 64) (i 0) k) = ix2 (n0 := 100000) (n1 := 1) (i 0) (0 : Fin 1) :=
    funext fun a => Fin.ext (by match a with | ⟨0, _⟩ => rfl | ⟨1, _⟩ => rfl)
  rw [el, er, e20]
  rfl

end Cert.ReferenceIdeal.RefValue

end
-- ==== Proof.lean ====
/-
  The graph layer with symmetric degree normalisation, as a tiled kernel program and as its array-level reference.

  With `n[r] = max(1, deg r) ^ (-1/2)`, `deg r` the number of edges whose destination is node `r`, both programs compute
      out[r, o] = Σ_k (A[r, k] · n[r]) · W[o, k] + b[o],   A[r, ·] = Σ over the edges (s → r) of feat[s, ·] · n[s].
  The kernel program runs the two dense stages — the row scaling `feat[s, ·] · n[s]` and the rescaled linear layer — on
  a grid of twenty blocks of 5000 rows each, with the degree count, the gather along the edges and the accumulation
  at the destinations as host operations around them; it rounds the rescaled rows and the weights to a narrower float
  format before the matrix product. The reference is the same formula on whole arrays. On the extended reals a change
  of float format is the identity, a matrix product into a zero accumulator is the plain sum of products, and the two
  programs apply the same degree count, power, gather and accumulation to the same arrays, so the results agree entry
  by entry; no algebraic law beyond reading both sides at an index is used, and the finiteness of the inputs is not
  needed.

  The parts: `Spec` (the two dense stages as functions of whole arrays), `ScaledRows` and `DenseLayer` (each stage's
  twenty written-back blocks are the blocks of that function), `HostReads` (what the host operations leave in the
  buffers the stages read), `KernelRun` (the kernel program's run with its result named), `KernelValue` (the kernel
  program's result as one function of its arguments), `RefValue` (the reference's result is the same function).
  The ideal pass rewrote nothing in the kernel, so the idealization statement is trivial.
-/
import proofs.«175793_j11158325035410_1_alg».proof.Defs
import proofs.«175793_j11158325035410_1_alg».proof.Proof.Gen.Kernel
import proofs.«175793_j11158325035410_1_alg».proof.Proof.Gen.Kernel.Skeleton
import proofs.«175793_j11158325035410_1_alg».proof.Proof.Gen.Kernel.Launch
import proofs.«175793_j11158325035410_1_alg».proof.Proof.Gen.Kernel.Points
import proofs.«175793_j11158325035410_1_alg».proof.Proof.Gen.Kernel.Frame
import proofs.«175793_j11158325035410_1_alg».proof.Proof.Gen.KernelIdeal
import proofs.«175793_j11158325035410_1_alg».proof.Proof.Gen.KernelIdeal.Skeleton
import proofs.«175793_j11158325035410_1_alg».proof.Proof.Gen.KernelIdeal.Launch
import proofs.«175793_j11158325035410_1_alg».proof.Proof.Gen.KernelIdeal.Points
import proofs.«175793_j11158325035410_1_alg».proof.Proof.Gen.KernelIdeal.Frame
import proofs.«175793_j11158325035410_1_alg».proof.Proof.Gen.ReferenceIdeal
import proofs.«175793_j11158325035410_1_alg».proof.Proof.Gen.Pre_finite_inputs
import proofs.«175793_j11158325035410_1_alg».proof.Proof.Gen.ReferenceIdeal.Run
import proofs.«175793_j11158325035410_1_alg».proof.Proof.Gen.ReferenceIdeal.Read
import proofs.«175793_j11158325035410_1_alg».proof.Proof.KernelRun
import proofs.«175793_j11158325035410_1_alg».proof.Proof.KernelValue
import proofs.«175793_j11158325035410_1_alg».proof.Proof.RefValue
import Idealize.ShloMosaic.Adequacy
import Idealize.ShloMosaic.Init

noncomputable section

namespace Cert.Proof

open Idealize.ShloMosaic Idealize.SL.Sem

/-- The kernel program as printed terminates without a fault and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing to restate. -/
theorem preserves : Cert.preserves_Kernel_KernelIdeal := trivial

/-- From memories that agree on the five arguments both programs end with the same result array: the kernel program's
    is the dense layer of the aggregated scaled rows (`result_value`), the reference's is its composed term, and the
    two are one function of the arguments — the scale column, the scaled features and the aggregated messages are the
    same terms on both sides (`scale_eq`, `scaled_eq`, `agg_eq`), and the reference's linear layer read at an index is
    the dense layer (`result_eq`). -/
theorem algebraic : Cert.algebraic_KernelIdeal_ReferenceIdeal := by
  intro m ρ m' ρ' _ hagree
  refine ⟨fun c => Cert.KernelIdeal.Gen.W6 m ρ c (Proc.devRef .tc Cert.KernelIdeal.main_v22),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W6 m ρ c (Proc.devRef .tc Cert.KernelIdeal.main_v22)
  rw [Cert.ReferenceIdeal.Read.val_main_v26_eq, Cert.KernelIdeal.Boundary.result_value m ρ c,
    (hagree c).1, (hagree c).2.1, (hagree c).2.2.1, (hagree c).2.2.2.1, (hagree c).2.2.2.2,
    Cert.ReferenceIdeal.RefValue.scale_eq, Cert.ReferenceIdeal.RefValue.scaled_eq, Cert.ReferenceIdeal.RefValue.agg_eq]
  exact (Cert.ReferenceIdeal.RefValue.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
